-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x128 : Shape := ⟨4, ![1, 512, 512, 128]⟩
abbrev S512x128 : Shape := ⟨2, ![512, 128]⟩
abbrev S128x512 : Shape := ⟨2, ![128, 512]⟩
abbrev S512 : Shape := ⟨1, ![512]⟩
abbrev S128 : Shape := ⟨1, ![128]⟩
abbrev S_ : Shape := ⟨0, ![]⟩

class Facts : Prop where
  bcast_S_S1x512x512x128 : S_.BroadcastsInDim S1x512x512x128 (![] : Fin 0 → Fin S1x512x512x128.rank)
  reducesTo_S1x512x512x128_S_d0_1_2_3 : S1x512x512x128.ReducesTo [0, 1, 2, 3] S_
  h_S_ : 0 < S_.numel
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x512x512x128 .f32) (main_arg1 : FVec F S512x128 .f32) (main_arg2 : FVec F S128x512 .f32) (main_arg3 : FVec F S512 .f32) (main_arg4 : FVec F S128 .f32) (main_arg5 : FVec F S128 .f32) (main_arg6 : FVec F S128 .f32) : IVec S_ 1 :=
  let main_v0 : FVec F S1x512x512x128 .f32 := Host.absf main_arg0
  let main_cst : FVec F S_ .f32 := constant S_ .f32 0x7F800000#32
  let main_v1 : FVec F S1x512x512x128 .f32 := broadcastInDim S1x512x512x128 ![] bcast_S_S1x512x512x128 main_cst
  let main_v2 : IVec S1x512x512x128 1 := cmpf .olt main_v0 main_v1
  let main_c : IVec S_ 1 := constantI S_ 1 1#1
  let main_v3 : IVec S_ 1 := (fun x v => Host.reduce IntOp.andi x v reducesTo_S1x512x512x128_S_d0_1_2_3 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S1x512x512x128 : Shape := ⟨4, ![1, 512, 512, 128]⟩
abbrev S512x128 : Shape := ⟨2, ![512, 128]⟩
abbrev S128x512 : Shape := ⟨2, ![128, 512]⟩
abbrev S512 : Shape := ⟨1, ![512]⟩
abbrev S128 : Shape := ⟨1, ![128]⟩
abbrev S262144x128 : Shape := ⟨2, ![262144, 128]⟩
abbrev S1x512 : Shape := ⟨2, ![1, 512]⟩
abbrev S1x128 : Shape := ⟨2, ![1, 128]⟩
abbrev S8192x128 : Shape := ⟨2, ![8192, 128]⟩
abbrev S8192 : Shape := ⟨1, ![8192]⟩
abbrev S8192x1 : Shape := ⟨2, ![8192, 1]⟩
abbrev S8192x512 : Shape := ⟨2, ![8192, 512]⟩

abbrev nBuf : Space → Nat
  | .hbm => 18
  | .vmem => 10
  | .smem => 0
  | _ => 0

abbrev bufTy : (tb : Table) → Fin (tcTables nBuf tb) → BufTy
  | .hbm, ⟨0, _⟩ => ⟨S1x512x512x128, .f32⟩
  | .hbm, ⟨1, _⟩ => ⟨S512x128, .f32⟩
  | .hbm, ⟨2, _⟩ => ⟨S128x512, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S262144x128, .f32⟩
  | .hbm, ⟨8, _⟩ => ⟨S128x512, .f32⟩
  | .hbm, ⟨9, _⟩ => ⟨S128x512, .bf16⟩
  | .hbm, ⟨10, _⟩ => ⟨S512x128, .f32⟩
  | .hbm, ⟨11, _⟩ => ⟨S512x128, .bf16⟩
  | .hbm, ⟨12, _⟩ => ⟨S1x512, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S262144x128, .f32⟩
  | .hbm, ⟨17, _⟩ => ⟨S1x512x512x128, .f32⟩
  | .local _ .vmem, ⟨0, _⟩ => ⟨S8192x128, .f32⟩
  | .local _ .vmem, ⟨1, _⟩ => ⟨S8192x128, .f32⟩
  | .local _ .vmem, ⟨2, _⟩ => ⟨S128x512, .bf16⟩
  | .local _ .vmem, ⟨3, _⟩ => ⟨S512x128, .bf16⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S8192x128, .f32⟩
  | .local _ .vmem, ⟨9, _⟩ => ⟨S8192x128, .f32⟩
  | _, _ => ⟨S1x512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x512x512x128_S262144x128 : S1x512x512x128.ShapeCasts S262144x128
  transposes_S512x128_S128x512_1_0 : S512x128.Transposes [1, 0] S128x512
  bitsLt_bf16_f32 : FTy.bits .bf16 < FTy.bits .f32
  transposes_S128x512_S512x128_1_0 : S128x512.Transposes [1, 0] S512x128
  shapeCasts_S512_S1x512 : S512.ShapeCasts S1x512
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  broadcasts_S8192x1_S8192x128 : S8192x1.Broadcasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8192x512 : S1x512.Broadcasts S8192x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S262144x128_S1x512x512x128 : S262144x128.ShapeCasts S1x512x512x128
  dot_S8192x128_S128x512_S8192x512_1_0_0_1_n_n_wf : DotDims.WF S8192x128 S128x512 S8192x512 [1] [0] [0] [1] [] []
  dot_S8192x512_S512x128_S8192x128_1_0_0_1_n_n_wf : DotDims.WF S8192x512 S512x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S262144x128.size a
  hwx0_7 : ∀ i : grid0.Coords, EltTy.bits .f32 = 32 ∨ (Rect.block (s := S262144x128) S8192x128.size (cc0_transform_7 i) (hinb0_7 i)).WholeWords (EltTy.packing .f32)

variable [Facts₀]

def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S8192x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x512x512x128 : Shape := ⟨4, ![1, 512, 512, 128]⟩
abbrev S512x128 : Shape := ⟨2, ![512, 128]⟩
abbrev S128x512 : Shape := ⟨2, ![128, 512]⟩
abbrev S512 : Shape := ⟨1, ![512]⟩
abbrev S128 : Shape := ⟨1, ![128]⟩
abbrev S_ : Shape := ⟨0, ![]⟩
abbrev S1x512x512 : Shape := ⟨3, ![1, 512, 512]⟩
abbrev S1x512x512x1 : Shape := ⟨4, ![1, 512, 512, 1]⟩
abbrev S1x1x1x128 : Shape := ⟨4, ![1, 1, 1, 128]⟩
abbrev S1x512x512x512 : Shape := ⟨4, ![1, 512, 512, 512]⟩
abbrev S1x1x1x512 : Shape := ⟨4, ![1, 1, 1, 512]⟩

abbrev nBuf : Space → Nat
  | .hbm => 47
  | .vmem => 0
  | .smem => 0
  | _ => 0

abbrev bufTy : (tb : Table) → Fin (tcTables nBuf tb) → BufTy
  | .hbm, ⟨0, _⟩ => ⟨S1x512x512x128, .f32⟩
  | .hbm, ⟨1, _⟩ => ⟨S512x128, .f32⟩
  | .hbm, ⟨2, _⟩ => ⟨S128x512, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1x512x512, .f32⟩
  | .hbm, ⟨9, _⟩ => ⟨S1x512x512x1, .f32⟩
  | .hbm, ⟨10, _⟩ => ⟨S_, .f32⟩
  | .hbm, ⟨11, _⟩ => ⟨S1x512x512x1, .f32⟩
  | .hbm, ⟨12, _⟩ => ⟨S1x512x512x1, .f32⟩
  | .hbm, ⟨13, _⟩ => ⟨S1x512x512x128, .f32⟩
  | .hbm, ⟨14, _⟩ => ⟨S1x512x512x128, .f32⟩
  | .hbm, ⟨15, _⟩ => ⟨S1x512x512x128, .f32⟩
  | .hbm, ⟨16, _⟩ => ⟨S_, .f32⟩
  | .hbm, ⟨17, _⟩ => ⟨S1x512x512, .f32⟩
  | .hbm, ⟨18, _⟩ => ⟨S1x512x512x1, .f32⟩
  | .hbm, ⟨19, _⟩ => ⟨S_, .f32⟩
  | .hbm, ⟨20, _⟩ => ⟨S1x512x512x1, .f32⟩
  | .hbm, ⟨21, _⟩ => ⟨S1x512x512x1, .f32⟩
  | .hbm, ⟨22, _⟩ => ⟨S1x512x512x128, .f32⟩
  | .hbm, ⟨23, _⟩ => ⟨S1x512x512x128, .f32⟩
  | .hbm, ⟨24, _⟩ => ⟨S_, .f32⟩
  | .hbm, ⟨25, _⟩ => ⟨S1x512x512x1, .f32⟩
  | .hbm, ⟨26, _⟩ => ⟨S1x512x512x1, .f32⟩
  | .hbm, ⟨27, _⟩ => ⟨S1x512x512x1, .f32⟩
  | .hbm, ⟨28, _⟩ => ⟨S1x512x512x128, .f32⟩
  | .hbm, ⟨29, _⟩ => ⟨S1x512x512x128, .f32⟩
  | .hbm, ⟨30, _⟩ => ⟨S1x1x1x128, .f32⟩
  | .hbm, ⟨31, _⟩ => ⟨S1x512x512x128, .f32⟩
  | .hbm, ⟨32, _⟩ => ⟨S1x512x512x128, .f32⟩
  | .hbm, ⟨33, _⟩ => ⟨S1x1x1x128, .f32⟩
  | .hbm, ⟨34, _⟩ => ⟨S1x512x512x128, .f32⟩
  | .hbm, ⟨35, _⟩ => ⟨S1x512x512x128, .f32⟩
  | .hbm, ⟨36, _⟩ => ⟨S1x512x512x512, .f32⟩
  | .hbm, ⟨37, _⟩ => ⟨S1x1x1x512, .f32⟩
  | .hbm, ⟨38, _⟩ => ⟨S1x512x512x512, .f32⟩
  | .hbm, ⟨39, _⟩ => ⟨S1x512x512x512, .f32⟩
  | .hbm, ⟨40, _⟩ => ⟨S_, .f32⟩
  | .hbm, ⟨41, _⟩ => ⟨S1x512x512x512, .f32⟩
  | .hbm, ⟨42, _⟩ => ⟨S1x512x512x512, .f32⟩
  | .hbm, ⟨43, _⟩ => ⟨S1x512x512x128, .f32⟩
  | .hbm, ⟨44, _⟩ => ⟨S1x1x1x128, .f32⟩
  | .hbm, ⟨45, _⟩ => ⟨S1x512x512x128, .f32⟩
  | .hbm, ⟨46, _⟩ => ⟨S1x512x512x128, .f32⟩
  | _, _ => ⟨S1x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S1x512x512x128_S1x512x512_d3 : S1x512x512x128.ReducesTo [3] S1x512x512
  h_S_ : 0 < S_.numel
  bcast_S1x512x512_S1x512x512x1_0_1_2 : S1x512x512.BroadcastsInDim S1x512x512x1 (![0, 1, 2] : Fin 3 → Fin S1x512x512x1.rank)
  bcast_S_S1x512x512x1 : S_.BroadcastsInDim S1x512x512x1 (![] : Fin 0 → Fin S1x512x512x1.rank)
  bcast_S1x512x512x1_S1x512x512x128_0_1_2_3 : S1x512x512x1.BroadcastsInDim S1x512x512x128 (![0, 1, 2, 3] : Fin 4 → Fin S1x512x512x128.rank)
  bcast_S128_S1x1x1x128_3 : S128.BroadcastsInDim S1x1x1x128 (![3] : Fin 1 → Fin S1x1x1x128.rank)
  bcast_S1x1x1x128_S1x512x512x128_0_1_2_3 : S1x1x1x128.BroadcastsInDim S1x512x512x128 (![0, 1, 2, 3] : Fin 4 → Fin S1x512x512x128.rank)
  bcast_S512_S1x1x1x512_3 : S512.BroadcastsInDim S1x1x1x512 (![3] : Fin 1 → Fin S1x1x1x512.rank)
  bcast_S1x1x1x512_S1x512x512x512_0_1_2_3 : S1x1x1x512.BroadcastsInDim S1x512x512x512 (![0, 1, 2, 3] : Fin 4 → Fin S1x512x512x512.rank)
  bcast_S_S1x512x512x512 : S_.BroadcastsInDim S1x512x512x512 (![] : Fin 0 → Fin S1x512x512x512.rank)
  dot_S1x512x512x128_S512x128_S1x512x512x512_3_1_012_0_n_n_wf : DotDims.WF S1x512x512x128 S512x128 S1x512x512x512 [3] [1] [0, 1, 2] [0] [] []
  dot_S1x512x512x512_S128x512_S1x512x512x128_3_1_012_0_n_n_wf : DotDims.WF S1x512x512x512 S128x512 S1x512x512x128 [3] [1] [0, 1, 2] [0] [] []

variable [Facts₀]

def dot_S1x512x512x128_S512x128_S1x512x512x512_3_1_012_0_n_n : DotDims S1x512x512x128 S512x128 S1x512x512x512 where
  lhsContracting := [3]
  rhsContracting := [1]
  lhsNonContracting := [0, 1, 2]
  rhsNonContracting := [0]
  lhsBatch := []
  rhsBatch := []
  wf := dot_S1x512x512x128_S512x128_S1x512x512x512_3_1_012_0_n_n_wf
def dot_S1x512x512x512_S128x512_S1x512x512x128_3_1_012_0_n_n : DotDims S1x512x512x512 S128x512 S1x512x512x128 where
  lhsContracting := [3]
  rhsContracting := [1]
  lhsNonContracting := [0, 1, 2]
  rhsNonContracting := [0]
  lhsBatch := []
  rhsBatch := []
  wf := dot_S1x512x512x512_S128x512_S1x512x512x128_3_1_012_0_n_n_wf

class Facts : Prop extends Facts₀ where

variable [Facts]
-- ==== Proof.RowMlp.lean ====
/-
  The function both programs compute, stated once on the extended reals, one row at a time.

  A row is a vector x of 128 extended reals. It is centred on its mean (the sum of its entries divided by 128),
  scaled by the reciprocal square root of its variance (the mean of the squared centred entries) plus a fixed
  offset, then entry by entry multiplied by a gain and moved by a shift. Each of 512 hidden units takes the inner
  product of that normalised row with its own weight row, adds its bias and keeps the larger of the result and
  zero. Each of 128 outputs takes the inner product of the hidden vector with its own weight row and adds its
  bias. Division, the reciprocal square root and the two literals are the ideal instance's: the literals are kept
  as the single-precision words they were written as and are never evaluated, since the same word stands on both
  sides. No law beyond reindexing a finite sum is used, so nothing here needs the entries to be finite.

  The whole array: entry (0, b, c, e) of the result is output e of row (b, c) of the input.
-/
import Idealize.ShloMosaic.PureOps.Ideal.Laws
import Idealize.ShloMosaic.Lib.ValueIdx

noncomputable section

open scoped BigOperators

namespace Cert.RowMlp

open Idealize.ShloMosaic Idealize.ShloMosaic.ValueIdx

/-- The row length, 128, as the extended real its single-precision word denotes. -/
abbrev width : EReal := Ideal.ofBits .f32 0x43000000#32
/-- The offset added to the variance before the reciprocal square root, as its single-precision word denotes. -/
abbrev offset : EReal := Ideal.ofBits .f32 0x3727C5AC#32

/-- The mean of a row: the sum of its entries over the row length. -/
def mean (x : Fin 128 → EReal) : EReal := Ideal.div (∑ k : Fin 128, x k) width

/-- A row's entry less the row's mean. -/
def centred (x : Fin 128 → EReal) (d : Fin 128) : EReal := x d - mean x

/-- The variance of a row: the mean of its squared centred entries. -/
def variance (x : Fin 128 → EReal) : EReal := Ideal.div (∑ k : Fin 128, centred x k * centred x k) width

/-- The normalised row: centred, scaled by the reciprocal square root of variance plus offset, times gain, plus shift. -/
def normed (x gain shift : Fin 128 → EReal) (d : Fin 128) : EReal :=
  centred x d * Ideal.rsqrt (variance x + offset) * gain d + shift d

/-- Hidden unit j: the inner product of the normalised row with weight row j, plus bias j, or zero if that is larger. -/
def hidden (x gain shift : Fin 128 → EReal) (w1 : Fin 512 → Fin 128 → EReal) (b1 : Fin 512 → EReal) (j : Fin 512) : EReal :=
  max ((∑ d : Fin 128, normed x gain shift d * w1 j d) + b1 j) (Ideal.ofBits .f32 0x00000000#32)

/-- Output e: the inner product of the hidden vector with the second weight row e, plus bias e. -/
def out (x gain shift : Fin 128 → EReal) (w1 : Fin 512 → Fin 128 → EReal) (b1 : Fin 512 → EReal)
    (w2 : Fin 128 → Fin 512 → EReal) (b2 : Fin 128 → EReal) (e : Fin 128) : EReal :=
  (∑ j : Fin 512, hidden x gain shift w1 b1 j * w2 e j) + b2 e

/-- Equal ingredients give equal outputs. -/
theorem out_congr {x x' gain gain' shift shift' : Fin 128 → EReal} {w1 w1' : Fin 512 → Fin 128 → EReal} {b1 b1' : Fin 512 → EReal}
    {w2 w2' : Fin 128 → Fin 512 → EReal} {b2 b2' : Fin 128 → EReal} {e e' : Fin 128}
    (hx : x = x') (hg : gain = gain') (hs : shift = shift') (hw1 : w1 = w1') (hb1 : b1 = b1') (hw2 : w2 = w2') (hb2 : b2 = b2')
    (he : e = e') : out x gain shift w1 b1 w2 b2 e = out x' gain' shift' w1' b1' w2' b2' e' := by
  subst hx hg hs hw1 hb1 hw2 hb2 he; rfl

/-- Row (b, c) of a [1, 512, 512, 128] array. -/
def rowOf (x : (⟨4, ![1, 512, 512, 128]⟩ : Shape).Idx → EReal) (b c : Fin 512) : Fin 128 → EReal :=
  fun k => x (ix4 (0 : Fin 1) b c k)

/-- THE RESULT: entry (·, b, c, e) is output e of row (b, c) of x, with the weights, biases, gain and shift read by
    their coordinates. -/
def G (x : (⟨4, ![1, 512, 512, 128]⟩ : Shape).Idx → EReal) (w1 : (⟨2, ![512, 128]⟩ : Shape).Idx → EReal)
    (w2 : (⟨2, ![128, 512]⟩ : Shape).Idx → EReal) (b1 : (⟨1, ![512]⟩ : Shape).Idx → EReal)
    (b2 gain shift : (⟨1, ![128]⟩ : Shape).Idx → EReal) : (⟨4, ![1, 512, 512, 128]⟩ : Shape).Idx → EReal :=
  fun i => out (rowOf x (i 1) (i 2)) (fun d => gain (ix1 d)) (fun d => shift (ix1 d)) (fun j d => w1 (ix2 j d))
    (fun j => b1 (ix1 j)) (fun e j => w2 (ix2 e j)) (fun e => b2 (ix1 e)) (i 3)

/-- Two rank-4 indices with equal coordinates are equal. -/
theorem idx4_ext {n0 n1 n2 n3 : Nat} (i j : (⟨4, ![n0, n1, n2, n3]⟩ : Shape).Idx)
    (h0 : i 0 = j 0) (h1 : i 1 = j 1) (h2 : i 2 = j 2) (h3 : i 3 = j 3) : i = j := by
  funext a; match a with | ⟨0, _⟩ => exact h0 | ⟨1, _⟩ => exact h1 | ⟨2, _⟩ => exact h2 | ⟨3, _⟩ => exact h3

/-- Two rank-2 indices with equal coordinates are equal. -/
theorem idx2_ext {n0 n1 : Nat} (i j : (⟨2, ![n0, n1]⟩ : Shape).Idx) (h0 : i 0 = j 0) (h1 : i 1 = j 1) : i = j := by
  funext a; match a with | ⟨0, _⟩ => exact h0 | ⟨1, _⟩ => exact h1

end Cert.RowMlp

end
-- ==== Proof.RefValue.lean ====
/-
  The reference computes the row function: its result array, read entry by entry, is `RowMlp.G` of its arguments.

  The reference's program is a chain of whole-array operations. Read at an entry (a, b, c, ·) each stage depends on
  row (b, c) of the input only: the two sums over the last axis are the row's sum and the sum of its squared centred
  entries, each `0 +` a sum over the 128 positions; the broadcasts copy a row's scalar to every position or a
  vector's entry d to every row; the two contractions are sums over the 128 positions of a normalised row and over
  the 512 hidden units. Stage by stage these are `mean`, `centred`, `variance`, `normed`, `hidden` and `out` of
  that row. The host's quotient and reciprocal square root are the ideal instance's, as in the specification.
-/
import proofs.«141221_j55173149884461_2_alg».proof.Proof.Gen.ReferenceIdeal.Read
import proofs.«141221_j55173149884461_2_alg».proof.Proof.RowMlp

noncomputable section

open scoped BigOperators

namespace Cert.ReferenceIdeal.RefValue

open Cert.ReferenceIdeal Cert.ReferenceIdeal.Read Idealize.ShloMosaic Idealize.ShloMosaic.ValueIdx Cert.RowMlp

variable (x0 : (⟨S1x512x512x128, .f32⟩ : BufTy).Contents (Elt Ideal)) (x1 : (⟨S512x128, .f32⟩ : BufTy).Contents (Elt Ideal))
  (x2 : (⟨S128x512, .f32⟩ : BufTy).Contents (Elt Ideal)) (x3 : (⟨S512, .f32⟩ : BufTy).Contents (Elt Ideal))
  (x4 x5 x6 : (⟨S128, .f32⟩ : BufTy).Contents (Elt Ideal))

/-- The quotient of the row sum by the row length, at any entry of row (b, c), is the row's mean. -/
theorem mean_at (a : Fin 1) (b c : Fin 512) (u : Fin 1) :
    val_main_v3 (F := Ideal) x0 (ix4 a b c u) = mean (rowOf x0 b c) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold mean rowOf
  exact congrArg (fun s => Ideal.div s width) (Finset.sum_congr rfl fun k _ => congrArg x0 (idx4_ext _ _ rfl rfl rfl rfl))

/-- The input less its broadcast row mean is the centred row (the first of the two places the reference forms it). -/
theorem centred_at (a : Fin 1) (b c : Fin 512) (d : Fin 128) :
    val_main_v5 (F := Ideal) x0 (ix4 a b c d) = centred (rowOf x0 b c) d := by
  obtain rfl : a = 0 := Subsingleton.elim _ _
  rw [val_main_v5_apply, val_main_v4_apply,
    show idx_main_v4 (ix4 (0 : Fin 1) b c d) = ix4 (0 : Fin 1) b c (0 : Fin 1) from idx4_ext _ _ rfl rfl rfl rfl, mean_at]
  rfl

/-- The same difference where the reference forms it a second time. -/
theorem centred_at' (a : Fin 1) (b c : Fin 512) (d : Fin 128) :
    val_main_v12 (F := Ideal) x0 (ix4 a b c d) = centred (rowOf x0 b c) d := by
  obtain rfl : a = 0 := Subsingleton.elim _ _
  rw [val_main_v12_apply, val_main_v11_apply,
    show idx_main_v11 (ix4 (0 : Fin 1) b c d) = ix4 (0 : Fin 1) b c (0 : Fin 1) from idx4_ext _ _ rfl rfl rfl rfl, mean_at]
  rfl

/-- The quotient of the sum of squared centred entries by the row length is the row's variance. -/
theorem variance_at (a : Fin 1) (b c : Fin 512) (u : Fin 1) :
    val_main_v10 (F := Ideal) x0 (ix4 a b c u) = variance (rowOf x0 b c) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold variance
  refine congrArg (fun s => Ideal.div s width) (Finset.sum_congr rfl fun k _ => ?_)
  rw [show idx_main_v7 (idx_main_v8 (ix4 a b c u)) k = ix4 (0 : Fin 1) b c k from idx4_ext _ _ rfl rfl rfl rfl,
    val_main_v6_apply, centred_at]
  rfl

/-- The centred row scaled, multiplied by the gain and moved by the shift is the normalised row. -/
theorem normed_at (a : Fin 1) (b c : Fin 512) (d : Fin 128) :
    val_main_v23 (F := Ideal) x0 x5 x6 (ix4 a b c d)
      = normed (rowOf x0 b c) (fun d => x5 (ix1 d)) (fun d => x6 (ix1 d)) d := by
  rw [val_main_v23_apply, val_main_v20_apply, val_main_v17_apply, centred_at', val_main_v16_apply,
    show idx_main_v16 (ix4 a b c d) = ix4 (0 : Fin 1) b c (0 : Fin 1) from idx4_ext _ _ rfl rfl rfl rfl,
    val_main_v15_apply, val_main_v14_apply, variance_at, val_main_v13_apply, val_main_cst_3_apply,
    val_main_v19_apply, val_main_v18_apply, val_main_v22_apply, val_main_v21_apply,
    show idx_main_v18 (idx_main_v19 (ix4 a b c d)) = ix1 d from funext fun e => match e with | ⟨0, _⟩ => rfl,
    show idx_main_v21 (idx_main_v22 (ix4 a b c d)) = ix1 d from funext fun e => match e with | ⟨0, _⟩ => rfl]
  rfl

/-- The first contraction plus its bias, kept where positive, is the hidden unit. -/
theorem hidden_at (a : Fin 1) (b c : Fin 512) (j : Fin 512) :
    val_main_v28 (F := Ideal) x0 x1 x3 x5 x6 (ix4 a b c j)
      = RowMlp.hidden (rowOf x0 b c) (fun d => x5 (ix1 d)) (fun d => x6 (ix1 d)) (fun j d => x1 (ix2 j d)) (fun j => x3 (ix1 j)) j := by
  rw [val_main_v28_apply, val_main_v27_apply, val_main_v24_apply, val_main_v26_apply, val_main_v25_apply,
    val_main_call0_v0_apply, val_main_call0_cst_apply,
    show idx_main_v25 (idx_main_v26 (ix4 a b c j)) = ix1 j from funext fun e => match e with | ⟨0, _⟩ => rfl]
  simp only [Ideal.maximumf_def, Ideal.addf_def, Ideal.ofBits_def]
  unfold RowMlp.hidden
  refine congrArg (fun s => max (s + x3 (ix1 j)) (Ideal.ofBits .f32 0x00000000#32)) (Finset.sum_congr rfl fun k _ => ?_)
  rw [show lidx_main_v24 (ix4 a b c j) k = ix4 a b c k from idx4_ext _ _ rfl rfl rfl rfl, normed_at,
    show ridx_main_v24 (ix4 a b c j) k = ix2 j k from idx2_ext _ _ rfl rfl]

/-- The second contraction plus its bias is the output. -/
theorem out_at (a : Fin 1) (b c : Fin 512) (e : Fin 128) :
    val_main_v32 (F := Ideal) x0 x1 x2 x3 x4 x5 x6 (ix4 a b c e)
      = RowMlp.out (rowOf x0 b c) (fun d => x5 (ix1 d)) (fun d => x6 (ix1 d)) (fun j d => x1 (ix2 j d)) (fun j => x3 (ix1 j))
          (fun e j => x2 (ix2 e j)) (fun e => x4 (ix1 e)) e := by
  rw [val_main_v32_apply, val_main_v29_apply, val_main_v31_apply, val_main_v30_apply,
    show idx_main_v30 (idx_main_v31 (ix4 a b c e)) = ix1 e from funext fun e' => match e' with | ⟨0, _⟩ => rfl]
  simp only [Ideal.addf_def]
  unfold RowMlp.out
  refine congrArg (fun s => s + x4 (ix1 e)) (Finset.sum_congr rfl fun k _ => ?_)
  rw [show lidx_main_v29 (ix4 a b c e) k = ix4 a b c k from idx4_ext _ _ rfl rfl rfl rfl, hidden_at,
    show ridx_main_v29 (ix4 a b c e) k = ix2 e k from idx2_ext _ _ rfl rfl]

/-- THE REFERENCE'S RESULT is `G` of its arguments. -/
theorem result_eq : val_main_v32 (F := Ideal) x0 x1 x2 x3 x4 x5 x6 = G x0 x1 x2 x3 x4 x5 x6 := by
  funext i
  obtain ⟨a, b, c, e, rfl⟩ : ∃ (a : Fin 1) (b c : Fin 512) (e : Fin 128), i = ix4 a b c e := ⟨i 0, i 1, i 2, i 3, eq_ix4 i⟩
  rw [out_at]
  rfl

end Cert.ReferenceIdeal.RefValue

end
-- ==== Proof.KernelRow.lean ====
/-
  One grid point of the kernel, read entry by entry: what the body stores for row p of its block of 8192 rows is the
  row function of that row.

  The body's arithmetic is named here value by value, over the block X of 8192 rows and the whole weight, bias, gain
  and shift blocks: the column of row means (a sum along each row over the row length), the centred block, the column
  of variances, the normalised block, the hidden block (a matrix product with the first weights, plus the bias row,
  or zero where that is larger) and the output block (a matrix product with the second weights plus the bias row).
  Read at (p, ·) each is the corresponding function of row p alone: a sum along the row axis is a sum over the row's
  128 entries, a column [8192, 1] spread over the block reads its row's scalar, a row [1, n] spread over the block
  reads its column's entry, a change of float format is the identity on extended reals, and a matrix product into a
  zero accumulator is the plain sum of products over the contracted index.
-/
import proofs.«141221_j55173149884461_2_alg».proof.Proof.Gen.KernelIdeal.Skeleton
import proofs.«141221_j55173149884461_2_alg».proof.Proof.RowMlp
import Idealize.ShloMosaic.Lib.Pipeline.Value
import Idealize.ShloMosaic.Lib.ValueLayout
import Idealize.ShloMosaic.PureOps.Ideal.Laws

noncomputable section

open scoped BigOperators

namespace Cert.KernelIdeal.Row

open Idealize.ShloMosaic Idealize.ShloMosaic.ValueIdx Cert.KernelIdeal Cert.KernelIdeal.Gen Cert.RowMlp

/-! ## Layout operations at coordinates -/

/-- A vector [a] recast as a column [a, 1] reads, at (i, ·), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] spread over [a, b] reads, at (p, c), the column's entry p (the column has more than one row). -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- A sum along the row axis, at row p, is the sum of that row's 128 entries. -/
theorem rowSum_at (X : FVec Ideal S8192x128 .f32) (h : S8192x128.Reduces [1] S8192) (hφ : FKind.Formats .f32)
    (hacc : (0x00000000#32 : BitVec 32) = 0x00000000#32) (p : Fin 8192) :
    multiReduction .add [1] S8192 X 0x00000000#32 h hφ hacc (ix1 p) = ∑ k : Fin 128, X (ix2 p k) :=
  (Ideal.multiReduction_add_single X 0x00000000#32 h hφ hacc (ix1 p)).trans
    (Finset.sum_congr rfl fun k _ => congrArg X (idx2_ext _ _ rfl rfl))

/-! ## The two matrix products at an entry -/

/-- The first product's dimension numbers: [8192, 128] times [128, 512], contracting the 128. -/
abbrev D1 : DotDims S8192x128 S128x512 S8192x512 := dot_S8192x128_S128x512_S8192x512_1_0_0_1_n_n
/-- The second product's: [8192, 512] times [512, 128], contracting the 512. -/
abbrev D2 : DotDims S8192x512 S512x128 S8192x128 := dot_S8192x512_S512x128_S8192x128_1_0_0_1_n_n

theorem lhs1_0 (i : S8192x512.Idx) (q : D1.contr.Idx) : (D1.lhsIdx i q 0).val = (i 0).val := by
  unfold DotDims.lhsIdx
  rw [dif_neg (show ¬(0 : Fin S8192x128.rank) ∈ D1.lhsBatch by decide), dif_pos (show (0 : Fin S8192x128.rank) ∈ D1.lhsNonContracting by decide)]
  rfl
theorem rhs1_1 (i : S8192x512.Idx) (q : D1.contr.Idx) : (D1.rhsIdx i q 1).val = (i 1).val := by
  unfold DotDims.rhsIdx
  rw [dif_neg (show ¬(1 : Fin S128x512.rank) ∈ D1.rhsBatch by decide), dif_pos (show (1 : Fin S128x512.rank) ∈ D1.rhsNonContracting by decide)]
  rfl
theorem lhs2_0 (i : S8192x128.Idx) (q : D2.contr.Idx) : (D2.lhsIdx i q 0).val = (i 0).val := by
  unfold DotDims.lhsIdx
  rw [dif_neg (show ¬(0 : Fin S8192x512.rank) ∈ D2.lhsBatch by decide), dif_pos (show (0 : Fin S8192x512.rank) ∈ D2.lhsNonContracting by decide)]
  rfl
theorem rhs2_1 (i : S8192x128.Idx) (q : D2.contr.Idx) : (D2.rhsIdx i q 1).val = (i 1).val := by
  unfold DotDims.rhsIdx
  rw [dif_neg (show ¬(1 : Fin S512x128.rank) ∈ D2.rhsBatch by decide), dif_pos (show (1 : Fin S512x128.rank) ∈ D2.rhsNonContracting by decide)]
  rfl

/-- The first product into a zero accumulator, at (p, j): the sum over d of A (p, d) times B (d, j). -/
theorem matmul1_at (A : FVec Ideal S8192x128 .bf16) (B : FVec Ideal S128x512 .bf16) (p : Fin 8192) (j : Fin 512) :
    matmul D1 none A B (constant (F := Ideal) S8192x512 .f32 0x00000000#32) (ix2 p j) = ∑ k : Fin 128, A (ix2 p k) * B (ix2 k j) := by
  show FloatOps.matmul D1 none A B (constant (F := Ideal) S8192x512 .f32 0x00000000#32) (ix2 p j) = _
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p j) ((contrEquiv1 D1 128 rfl rfl).symm k) = ix2 p k :=
    idx2_ext _ _ (Fin.ext (lhs1_0 _ _)) (Fin.ext ((D1.lhsIdx_val_of_single rfl _ _).trans hk))
  have er : D1.rhsIdx (ix2 p j) ((contrEquiv1 D1 128 rfl rfl).symm k) = ix2 k j :=
    idx2_ext _ _ (Fin.ext ((D1.rhsIdx_val_of_single rfl _ _).trans hk)) (Fin.ext (rhs1_1 _ _))
  rw [el, er]

/-- The second product into a zero accumulator, at (p, e): the sum over j of A (p, j) times B (j, e). -/
theorem matmul2_at (A : FVec Ideal S8192x512 .bf16) (B : FVec Ideal S512x128 .bf16) (p : Fin 8192) (e : Fin 128) :
    matmul D2 none A B (constant (F := Ideal) S8192x128 .f32 0x00000000#32) (ix2 p e) = ∑ k : Fin 512, A (ix2 p k) * B (ix2 k e) := by
  show FloatOps.matmul D2 none A B (constant (F := Ideal) S8192x128 .f32 0x00000000#32) (ix2 p e) = _
  rw [Ideal.matmul_constant_zero_apply, ← Equiv.sum_comp (contrEquiv1 D2 512 rfl rfl).symm]
  refine Finset.sum_congr rfl fun k _ => ?_
  have hk := contrEquiv1_symm_val D2 512 rfl rfl k
  have el : D2.lhsIdx (ix2 p e) ((contrEquiv1 D2 512 rfl rfl).symm k) = ix2 p k :=
    idx2_ext _ _ (Fin.ext (lhs2_0 _ _)) (Fin.ext ((D2.lhsIdx_val_of_single rfl _ _).trans hk))
  have er : D2.rhsIdx (ix2 p e) ((contrEquiv1 D2 512 rfl rfl).symm k) = ix2 k e :=
    idx2_ext _ _ (Fin.ext ((D2.rhsIdx_val_of_single rfl _ _).trans hk)) (Fin.ext (rhs2_1 _ _))
  rw [el, er]

/-! ## The body's values, named -/

/-- The column of row means: each row's sum over the row length. -/
def meanCol (X : FVec Ideal S8192x128 .f32) : FVec Ideal S8192x1 .f32 :=
  divf (shapeCast S8192x1 (multiReduction .add [1] S8192 X 0x00000000#32 reduces_S8192x128_S8192 (.inl rfl) rfl) shapeCasts_S8192_S8192x1)
    (broadcast S8192x1 (Scalar.ofBits .f32 0x43000000#32))

/-- The block less its row means. -/
def centredBlk (X : FVec Ideal S8192x128 .f32) : FVec Ideal S8192x128 .f32 :=
  subf X (broadcastTo S8192x128 (meanCol X) broadcasts_S8192x1_S8192x128)

/-- The column of row variances: each row's sum of squared centred entries over the row length. -/
def varCol (X : FVec Ideal S8192x128 .f32) : FVec Ideal S8192x1 .f32 :=
  divf (shapeCast S8192x1 (multiReduction .add [1] S8192 (mulf (centredBlk X) (centredBlk X)) 0x00000000#32 reduces_S8192x128_S8192 (.inl rfl) rfl) shapeCasts_S8192_S8192x1)
    (broadcast S8192x1 (Scalar.ofBits .f32 0x43000000#32))

/-- The normalised block: centred, scaled row by row, times the gain row, plus the shift row. -/
def normedBlk (X : FVec Ideal S8192x128 .f32) (WN BN : FVec Ideal S1x128 .f32) : FVec Ideal S8192x128 .f32 :=
  addf (mulf (mulf (centredBlk X)
      (broadcastTo S8192x128 (rsqrt (addf (varCol X) (broadcast S8192x1 (Scalar.ofBits .f32 0x3727C5AC#32)))) broadcasts_S8192x1_S8192x128))
      (broadcastTo S8192x128 WN broadcasts_S1x128_S8192x128))
    (broadcastTo S8192x128 BN broadcasts_S1x128_S8192x128)

/-- The hidden block: the product with the first weights plus the bias row, or zero where that is larger. -/
def hiddenBlk (X : FVec Ideal S8192x128 .f32) (WN BN : FVec Ideal S1x128 .f32) (W1 : FVec Ideal S128x512 .bf16)
    (B1 : FVec Ideal S1x512 .f32) : FVec Ideal S8192x512 .f32 :=
  maximumf (addf (matmul D1 none (truncf .bf16 (normedBlk X WN BN) bitsLt_bf16_f32) W1 (constant S8192x512 .f32 0x00000000#32))
      (broadcastTo S8192x512 B1 broadcasts_S1x512_S8192x512))
    (broadcast S8192x512 (Scalar.ofBits .f32 0x00000000#32))

/-- The output block: the product of the hidden block with the second weights plus the bias row. -/
def outBlk (X : FVec Ideal S8192x128 .f32) (WN BN : FVec Ideal S1x128 .f32) (W1 : FVec Ideal S128x512 .bf16)
    (B1 : FVec Ideal S1x512 .f32) (W2 : FVec Ideal S512x128 .bf16) (B2 : FVec Ideal S1x128 .f32) : FVec Ideal S8192x128 .f32 :=
  addf (matmul D2 none (truncf .bf16 (hiddenBlk X WN BN W1 B1) bitsLt_bf16_f32) W2 (constant S8192x128 .f32 0x00000000#32))
    (broadcastTo S8192x128 B2 broadcasts_S1x128_S8192x128)

/-- What the body stores is the output block of the blocks it loads (the same-shape casts of the loads drop out). -/
theorem pay_eq (x0 : FVec Ideal S8192x128 .f32) (x1 : FVec Ideal S128x512 .bf16) (x2 : FVec Ideal S512x128 .bf16)
    (x3 : FVec Ideal S1x512 .f32) (x4 x5 x6 : FVec Ideal S1x128 .f32) :
    k0_pay1 (k0_pay2 x0 x5 x6 x1 x3) (k0_pay3 x2) (constant S8192x128 .f32 0x00000000#32) x4 = outBlk x0 x5 x6 x1 x3 x2 x4 := by
  unfold k0_pay1 k0_pay2 k0_pay3 outBlk hiddenBlk normedBlk varCol centredBlk meanCol
  simp only [shapeCast_self]

/-! ## Each value at row p -/

variable (X : FVec Ideal S8192x128 .f32) (WN BN : FVec Ideal S1x128 .f32) (W1 : FVec Ideal S128x512 .bf16)
  (B1 : FVec Ideal S1x512 .f32) (W2 : FVec Ideal S512x128 .bf16) (B2 : FVec Ideal S1x128 .f32)

theorem meanCol_at (p : Fin 8192) (u : Fin 1) : meanCol X (ix2 p u) = mean (fun k => X (ix2 p k)) := by
  unfold meanCol mean
  rw [divf_apply, shapeCast_a_a1_apply, rowSum_at, broadcast_apply]
  rfl

theorem centredBlk_at (p : Fin 8192) (d : Fin 128) : centredBlk X (ix2 p d) = centred (fun k => X (ix2 p k)) d := by
  unfold centredBlk centred
  rw [subf_apply, broadcastTo_a1_ab_apply (by decide), meanCol_at]

theorem varCol_at (p : Fin 8192) (u : Fin 1) : varCol X (ix2 p u) = variance (fun k => X (ix2 p k)) := by
  unfold varCol variance
  rw [divf_apply, shapeCast_a_a1_apply, rowSum_at, broadcast_apply]
  refine congrArg (fun s => Ideal.div s width) (Finset.sum_congr rfl fun k _ => ?_)
  rw [mulf_apply, centredBlk_at]

theorem normedBlk_at (p : Fin 8192) (d : Fin 128) :
    normedBlk X WN BN (ix2 p d) = normed (fun k => X (ix2 p k)) (fun d => WN (ix2 (0 : Fin 1) d)) (fun d => BN (ix2 (0 : Fin 1) d)) d := by
  unfold normedBlk normed
  rw [addf_apply, mulf_apply, mulf_apply, centredBlk_at, broadcastTo_a1_ab_apply (by decide), broadcastTo_1b_ab_apply,
    broadcastTo_1b_ab_apply,
    show rsqrt (addf (varCol X) (broadcast S8192x1 (Scalar.ofBits .f32 0x3727C5AC#32))) (ix2 p (0 : Fin 1))
      = Ideal.rsqrt (varCol X (ix2 p (0 : Fin 1)) + offset) from rfl, varCol_at]

theorem hiddenBlk_at (p : Fin 8192) (j : Fin 512) :
    hiddenBlk X WN BN W1 B1 (ix2 p j)
      = RowMlp.hidden (fun k => X (ix2 p k)) (fun d => WN (ix2 (0 : Fin 1) d)) (fun d => BN (ix2 (0 : Fin 1) d))
          (fun j d => W1 (ix2 d j)) (fun j => B1 (ix2 (0 : Fin 1) j)) j := by
  unfold hiddenBlk RowMlp.hidden
  rw [maximumf_apply, addf_apply, matmul1_at, broadcastTo_1b_ab_apply, broadcast_apply]
  refine congrArg (fun s => max (s + B1 (ix2 (0 : Fin 1) j)) (Ideal.ofBits .f32 0x00000000#32)) (Finset.sum_congr rfl fun k _ => ?_)
  rw [truncf_apply, normedBlk_at]

/-- THE BODY AT ROW p: the output block at (p, e) is output e of row p of X. -/
theorem outBlk_at (p : Fin 8192) (e : Fin 128) :
    outBlk X WN BN W1 B1 W2 B2 (ix2 p e)
      = RowMlp.out (fun k => X (ix2 p k)) (fun d => WN (ix2 (0 : Fin 1) d)) (fun d => BN (ix2 (0 : Fin 1) d))
          (fun j d => W1 (ix2 d j)) (fun j => B1 (ix2 (0 : Fin 1) j)) (fun e j => W2 (ix2 j e)) (fun e => B2 (ix2 (0 : Fin 1) e)) e := by
  unfold outBlk RowMlp.out
  rw [addf_apply, matmul2_at, broadcastTo_1b_ab_apply]
  refine congrArg (fun s => s + B2 (ix2 (0 : Fin 1) e)) (Finset.sum_congr rfl fun k _ => ?_)
  rw [truncf_apply, hiddenBlk_at]

end Cert.KernelIdeal.Row

end
-- ==== Proof.KernelValue.lean ====
/-
  The kernel's result array after the run is `RowMlp.G` of its arguments.

  The program reshapes the input [1, 512, 512, 128] to 262144 rows of 128, transposes the two weight matrices,
  reshapes the bias, gain and shift vectors to single rows, runs the body over a grid of 32 points and reshapes the
  262144 output rows back. Point t fetches rows 8192 t … 8192 t + 8191 of the input and writes the same rows of the
  output; every other operand is fetched whole. So what point t writes back is block t of ONE function of the arrays
  as the region finds them — row r of it is the row function of row r of the reshaped input —, the 32 blocks cover
  the 262144 rows (row r lies in block r / 8192), and the output array ends at that function. Row b · 512 + c of the
  reshaped input is row (b, c) of the input, and entry (·, b, c, e) of the reshaped output is entry e of row
  b · 512 + c; a transposed weight read at (d, j) is the weight at (j, d), and a vector reshaped to a single row
  read at (0, d) is its entry d.
-/
import proofs.«141221_j55173149884461_2_alg».proof.Proof.Gen.KernelIdeal.Frame
import proofs.«141221_j55173149884461_2_alg».proof.Proof.KernelRow
import Idealize.ShloMosaic.Lib.Pipeline.Value
import Idealize.ShloMosaic.Lib.ValueLayout
import Idealize.ShloMosaic.Lib.StableHlo.Run
import Idealize.ShloMosaic.Lib.Tactic

noncomputable section

open scoped BigOperators

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.KernelIdeal.Row Cert.RowMlp Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The function of the arrays as the region finds them -/

/-- Row r, entry e: output e of the row function of row r of X, with the transposed weights and the single-row
    bias, gain and shift read at their coordinates. -/
def rowFn (X : FVec Ideal S262144x128 .f32) (W1 : FVec Ideal S128x512 .bf16) (W2 : FVec Ideal S512x128 .bf16)
    (B1 : FVec Ideal S1x512 .f32) (B2 WN BN : FVec Ideal S1x128 .f32) (r : Fin 262144) (e : Fin 128) : EReal :=
  RowMlp.out (fun k => X (ix2 r k)) (fun d => WN (ix2 (0 : Fin 1) d)) (fun d => BN (ix2 (0 : Fin 1) d))
    (fun j d => W1 (ix2 d j)) (fun j => B1 (ix2 (0 : Fin 1) j)) (fun e j => W2 (ix2 j e)) (fun e => B2 (ix2 (0 : Fin 1) e)) e

/-- The whole output array of 262144 rows. -/
def G2 (X : FVec Ideal S262144x128 .f32) (W1 : FVec Ideal S128x512 .bf16) (W2 : FVec Ideal S512x128 .bf16)
    (B1 : FVec Ideal S1x512 .f32) (B2 WN BN : FVec Ideal S1x128 .f32) : FVec Ideal S262144x128 .f32 :=
  fun i => rowFn X W1 W2 B1 B2 WN BN (i 0) (i 1)

/-! ## The index maps over the grid -/

/-- The input's and the output's block index at point t is (t, 0); every other operand's is (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks the body is called with -/

/-- The input's block at point t, row p, is row 8192 t + p of the reshaped input. -/
theorem iblk0_at (c : Dev nD) (t : Fin cfg0.N) (p : Fin 8192) (k : Fin 128) (r : Fin 262144)
    (hr : r.val = win0_7.index t (0 : Fin 2) * 8192 + 1 * p.val) :
    (iblk m c 0 t : FVec Ideal S8192x128 .f32) (ix2 p k) = (V m c main_v0 : FVec Ideal S262144x128 .f32) (ix2 r k) := by
  obtain ⟨e00, e01, e70, e71, -⟩ := idx_facts t
  show V m c main_v0 (((cfg0.win 0).blk t).view.emb (ix2 p k)) = V m c main_v0 (ix2 r k)
  have h : ((cfg0.win 0).blk t).view.emb (ix2 p k) = ix2 r k := by
    funext a; apply Fin.ext
    match a with
    | ⟨0, _⟩ => show win0_0.index t (0 : Fin 2) * 8192 + 1 * p.val = r.val; omega
    | ⟨1, _⟩ => show win0_0.index t (1 : Fin 2) * 128 + 1 * k.val = k.val; omega
  rw [h]

theorem iblk1_eq (c : Dev nD) (t : Fin cfg0.N) : (iblk m c 1 t : FVec Ideal S128x512 .bf16) = V m c main_v2 := by
  obtain ⟨-, -, -, -, e0, e1, -⟩ := idx_facts t
  funext y
  show V m c main_v2 (((cfg0.win 1).blk t).view.emb y) = V m c main_v2 y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 512 + 1 * (y 1).val = (y 1).val; omega
  rw [h]

theorem iblk2_eq (c : Dev nD) (t : Fin cfg0.N) : (iblk m c 2 t : FVec Ideal S512x128 .bf16) = V m c main_v4 := by
  obtain ⟨-, -, -, -, -, -, e0, e1, -⟩ := idx_facts t
  funext y
  show V m c main_v4 (((cfg0.win 2).blk t).view.emb y) = V m c main_v4 y
  have h : ((cfg0.win 2).blk t).view.emb y = y := by
    funext a; apply Fin.ext
    match a with
    | ⟨0, _⟩ => show win0_2.index t (0 : Fin 2) * 512 + 1 * (y 0).val = (y 0).val; omega
    | ⟨1, _⟩ => show win0_2.index t (1 : Fin 2) * 128 + 1 * (y 1).val = (y 1).val; omega
  rw [h]

theorem iblk3_eq (c : Dev nD) (t : Fin cfg0.N) : (iblk m c 3 t : FVec Ideal S1x512 .f32) = V m c main_v5 := by
  obtain ⟨-, -, -, -, -, -, -, -, e0, e1, -⟩ := idx_facts t
  funext y
  show V m c main_v5 (((cfg0.win 3).blk t).view.emb y) = V m c main_v5 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 512 + 1 * (y 1).val = (y 1).val; omega
  rw [h]

theorem iblk4_eq (c : Dev nD) (t : Fin cfg0.N) : (iblk m c 4 t : FVec Ideal S1x128 .f32) = V m c main_v6 := by
  obtain ⟨-, -, -, -, -, -, -, -, -, -, e0, e1, -⟩ := idx_facts t
  funext y
  show V m c main_v6 (((cfg0.win 4).blk t).view.emb y) = V m c main_v6 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [h]

theorem iblk5_eq (c : Dev nD) (t : Fin cfg0.N) : (iblk m c 5 t : FVec Ideal S1x128 .f32) = V m c main_v7 := by
  obtain ⟨-, -, -, -, -, -, -, -, -, -, -, -, e0, e1, -⟩ := idx_facts t
  funext y
  show V m c main_v7 (((cfg0.win 5).blk t).view.emb y) = V m c main_v7 y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [h]

theorem iblk6_eq (c : Dev nD) (t : Fin cfg0.N) : (iblk m c 6 t : FVec Ideal S1x128 .f32) = V m c main_v8 := by
  obtain ⟨-, -, -, -, -, -, -, -, -, -, -, -, -, -, e0, e1⟩ := idx_facts t
  funext y
  show V m c main_v8 (((cfg0.win 6).blk t).view.emb y) = V m c main_v8 y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  rw [h]

/-! ## What a point writes back, the cover, the array after the run -/

/-- WHAT POINT t WRITES BACK is block t of `G2` of the arrays as the region finds them. -/
theorem flushed_eq (c : Dev nD) (t : Fin cfg0.N) :
    (dats m 0 c).flushed 7 t = ((cfg0.win 7).blk t).view.read (Elt Ideal)
      (G2 (V m c main_v0) (V m c main_v2) (V m c main_v4) (V m c main_v5) (V m c main_v6) (V m c main_v7) (V m c main_v8)) := by
  show (cfg0.win 7).cut (grid0.coords t) ((dats m 0 c).after 7 t) = _
  rw [after0_7]
  unfold out0_7
  rw [View.canon_unit_zero hz]
  simp only [View.ld_unit_zero (S := S8192x128) hz, View.ld_unit_zero (S := S1x128) hz, View.ld_unit_zero (S := S128x512) hz,
    View.ld_unit_zero (S := S1x512) hz, View.ld_unit_zero (S := S512x128) hz]
  rw [pay_eq (iblk m c 0 t) (iblk m c 1 t) (iblk m c 2 t) (iblk m c 3 t) (iblk m c 4 t) (iblk m c 5 t) (iblk m c 6 t),
    iblk1_eq m c t, iblk2_eq m c t, iblk3_eq m c t, iblk4_eq m c t, iblk5_eq m c t, iblk6_eq m c t]
  obtain ⟨-, -, e70, e71, -⟩ := idx_facts t
  funext j
  obtain ⟨p, q, rfl⟩ : ∃ (p : Fin 8192) (q : Fin 128), j = ix2 p q := ⟨j 0, j 1, eq_ix2 j⟩
  show outBlk (iblk m c 0 t) (V m c main_v7) (V m c main_v8) (V m c main_v2) (V m c main_v5) (V m c main_v4) (V m c main_v6) (ix2 p q)
    = G2 (V m c main_v0) (V m c main_v2) (V m c main_v4) (V m c main_v5) (V m c main_v6) (V m c main_v7) (V m c main_v8)
        (((cfg0.win 7).blk t).view.emb (ix2 p q))
  refine (outBlk_at (iblk m c 0 t) (V m c main_v7) (V m c main_v8) (V m c main_v2) (V m c main_v5) (V m c main_v4) (V m c main_v6) p q).trans ?_
  unfold G2 rowFn
  refine out_congr (funext fun k => ?_) rfl rfl rfl rfl rfl rfl ?_
  · exact iblk0_at m c t p k _ rfl
  · apply Fin.ext
    show q.val = win0_7.index t (1 : Fin 2) * 128 + 1 * q.val
    omega

/-- An index of the output array is in point t's block iff each coordinate is in the block's range on its axis. -/
theorem mem_blk (t : Fin cfg0.N) (i : S262144x128.Idx) :
    i ∈ ((cfg0.win 7).blk t).view.set ↔ ∀ a : Fin 2, win0_7.index t a * S8192x128.size a ≤ (i a).val ∧ (i a).val < win0_7.index t a * S8192x128.size a + S8192x128.size a := by
  show i ∈ ((View.whole main_v9).slice (win0_7.rect t)).set ↔ _
  rw [View.set_slice_whole, Rect.mem_set_unit]
  exact Iff.rfl

/-- Row r of the output lies in the block of point r / 8192. -/
theorem cover (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  have hlt : (i 0).val / 8192 < cfg0.N := by rw [show cfg0.N = 32 from N_0]; omega
  obtain ⟨-, -, e70, e71, -⟩ := idx_facts ⟨(i 0).val / 8192, hlt⟩
  have e70' : win0_7.index ⟨(i 0).val / 8192, hlt⟩ (0 : Fin 2) = (i 0).val / 8192 := e70
  refine ⟨⟨(i 0).val / 8192, hlt⟩, flush0_7 _, ?_⟩
  rw [mem_blk]
  intro a
  match a with
  | ⟨0, _⟩ =>
    show win0_7.index ⟨(i 0).val / 8192, hlt⟩ (0 : Fin 2) * 8192 ≤ (i 0).val ∧ (i 0).val < win0_7.index ⟨(i 0).val / 8192, hlt⟩ (0 : Fin 2) * 8192 + 8192
    omega
  | ⟨1, _⟩ =>
    show win0_7.index ⟨(i 0).val / 8192, hlt⟩ (1 : Fin 2) * 128 ≤ (i 1).val ∧ (i 1).val < win0_7.index ⟨(i 0).val / 8192, hlt⟩ (1 : Fin 2) * 128 + 128
    omega

/-- THE OUTPUT ARRAY after the run is `G2` of the arrays as the region finds them. -/
theorem final (c : Dev nD) : (dats m 0 c).arrAt 7 cfg0.N
    = G2 (V m c main_v0) (V m c main_v2) (V m c main_v4) (V m c main_v5) (V m c main_v6) (V m c main_v7) (V m c main_v8) :=
  (dats m 0 c).arrAt_eq_of_cover 7 _ (fun t _ => flushed_eq m c t) cover

/-! ## The host operations before the region -/

theorem V_v0 (c : Dev nD) : (V m c main_v0 : FVec Ideal S262144x128 .f32)
    = shapeCast S262144x128 (m ((c : Thread nD τ).loc main_arg0)) shapeCasts_S1x512x512x128_S262144x128 := by
  show StableHlo.after hostOps0 (fun b => m (c, b)) (Proc.devRef .tc main_v0) = _
  after_results
  rfl
theorem V_v2 (c : Dev nD) : (V m c main_v2 : FVec Ideal S128x512 .bf16)
    = (truncf (F := Ideal) .bf16 (transpose S128x512 [1, 0] (m ((c : Thread nD τ).loc main_arg1) : FVec Ideal S512x128 .f32) transposes_S512x128_S128x512_1_0) bitsLt_bf16_f32 : FVec Ideal S128x512 .bf16) := by
  show StableHlo.after hostOps0 (fun b => m (c, b)) (Proc.devRef .tc main_v2) = _
  after_results
theorem V_v4 (c : Dev nD) : (V m c main_v4 : FVec Ideal S512x128 .bf16)
    = (truncf (F := Ideal) .bf16 (transpose S512x128 [1, 0] (m ((c : Thread nD τ).loc main_arg2) : FVec Ideal S128x512 .f32) transposes_S128x512_S512x128_1_0) bitsLt_bf16_f32 : FVec Ideal S512x128 .bf16) := by
  show StableHlo.after hostOps0 (fun b => m (c, b)) (Proc.devRef .tc main_v4) = _
  after_results
theorem V_v5 (c : Dev nD) : (V m c main_v5 : FVec Ideal S1x512 .f32)
    = shapeCast S1x512 (m ((c : Thread nD τ).loc main_arg3)) shapeCasts_S512_S1x512 := by
  show StableHlo.after hostOps0 (fun b => m (c, b)) (Proc.devRef .tc main_v5) = _
  after_results
  rfl
theorem V_v6 (c : Dev nD) : (V m c main_v6 : FVec Ideal S1x128 .f32)
    = shapeCast S1x128 (m ((c : Thread nD τ).loc main_arg4)) shapeCasts_S128_S1x128 := by
  show StableHlo.after hostOps0 (fun b => m (c, b)) (Proc.devRef .tc main_v6) = _
  after_results
  rfl
theorem V_v7 (c : Dev nD) : (V m c main_v7 : FVec Ideal S1x128 .f32)
    = shapeCast S1x128 (m ((c : Thread nD τ).loc main_arg5)) shapeCasts_S128_S1x128 := by
  show StableHlo.after hostOps0 (fun b => m (c, b)) (Proc.devRef .tc main_v7) = _
  after_results
  rfl
theorem V_v8 (c : Dev nD) : (V m c main_v8 : FVec Ideal S1x128 .f32)
    = shapeCast S1x128 (m ((c : Thread nD τ).loc main_arg6)) shapeCasts_S128_S1x128 := by
  show StableHlo.after hostOps0 (fun b => m (c, b)) (Proc.devRef .tc main_v8) = _
  after_results
  rfl

/-! ## The host operation after the region -/

/-- The program's result is the output array reshaped to [1, 512, 512, 128]. -/
theorem tail_eq (c : Dev nD) : Pipeline.afterTail₀ cfgs (dats m) 0 (V0 m) [hostOps1] c main_v10
    = shapeCast S1x512x512x128 ((dats m 0 c).arrAt 7 cfg0.N : FVec Ideal S262144x128 .f32) shapeCasts_S262144x128_S1x512x512x128 := by
  unfold Pipeline.afterTail₀
  show StableHlo.after hostOps1 _ (Proc.devRef .tc main_v10) = _
  after_results
  rw [show Pipeline.withArrays spec0 c (V0 m c) (fun w => (dats m 0 c).arrAt w cfg0.N) (Proc.devRef .tc main_v9)
      = (dats m 0 c).arrAt 7 cfg0.N from Pipeline.withArrays_arr spec0 launch0.win.arr_inj c _ _ 7]
  rfl

/-! ## The result, entry by entry -/

/-- Row b · 512 + c of the input reshaped to 262144 rows is row (b, c) of the input. -/
theorem rows_at (x : FVec Ideal S1x512x512x128 .f32) (b cc : Fin 512) (k : Fin 128) (r : Fin 262144)
    (hr : r.val = b.val * 512 + cc.val) :
    shapeCast S262144x128 x shapeCasts_S1x512x512x128_S262144x128 (ix2 r k) = x (ix4 (0 : Fin 1) b cc k) :=
  shapeCast_apply x shapeCasts_S1x512x512x128_S262144x128 (ix2 r k) (ix4 (0 : Fin 1) b cc k) (by
    rw [Shape.rowMajor_val_four, Shape.rowMajor_val_two]
    show ((0 * 512 + b.val) * 512 + cc.val) * 128 + k.val = r.val * 128 + k.val
    rw [hr]; omega)

/-- Entry (·, b, c, e) of the 262144 output rows reshaped to four axes is entry e of row b · 512 + c. -/
theorem unrows_at (y : FVec Ideal S262144x128 .f32) (a : Fin 1) (b cc : Fin 512) (e : Fin 128) (r : Fin 262144)
    (hr : r.val = b.val * 512 + cc.val) :
    shapeCast S1x512x512x128 y shapeCasts_S262144x128_S1x512x512x128 (ix4 a b cc e) = y (ix2 r e) :=
  shapeCast_apply y shapeCasts_S262144x128_S1x512x512x128 (ix4 a b cc e) (ix2 r e) (by
    have ha : a.val = 0 := by omega
    rw [Shape.rowMajor_val_two, Shape.rowMajor_val_four]
    show r.val * 128 + e.val = ((a.val * 512 + b.val) * 512 + cc.val) * 128 + e.val
    rw [hr, ha]; omega)

/-- THE KERNEL'S RESULT is `G` of its arguments. -/
theorem result_eq (c : Dev nD) : Pipeline.afterTail₀ cfgs (dats m) 0 (V0 m) [hostOps1] c main_v10
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [tail_eq, final, V_v0, V_v2, V_v4, V_v5, V_v6, V_v7, V_v8]
  funext i
  obtain ⟨a, b, cc, e, rfl⟩ : ∃ (a : Fin 1) (b cc : Fin 512) (e : Fin 128), i = ix4 a b cc e := ⟨i 0, i 1, i 2, i 3, eq_ix4 i⟩
  have hr : b.val * 512 + cc.val < 262144 := by have := b.isLt; have := cc.isLt; omega
  rw [unrows_at _ a b cc e ⟨b.val * 512 + cc.val, hr⟩ rfl]
  unfold G2 rowFn G rowOf
  refine out_congr (funext fun k => ?_) (funext fun d => ?_) (funext fun d => ?_) (funext fun j => funext fun d => ?_)
    (funext fun j => ?_) (funext fun e' => funext fun j => ?_) (funext fun e' => ?_) rfl
  · exact rows_at _ b cc k ⟨b.val * 512 + cc.val, hr⟩ rfl
  · exact shapeCast_a_1a_apply _ _ _ _
  · exact shapeCast_a_1a_apply _ _ _ _
  · exact (truncf_apply (ψ := .bf16) (φ := .f32) _ bitsLt_bf16_f32 _).trans (transpose_ix2_apply _ _ _ _)
  · exact shapeCast_a_1a_apply _ _ _ _
  · exact (truncf_apply (ψ := .bf16) (φ := .f32) _ bitsLt_bf16_f32 _).trans (transpose_ix2_apply _ _ _ _)
  · exact shapeCast_a_1a_apply _ _ _ _

/-! ## The run -/

/-- Every weakly fair execution of the kernel's program terminates with the result array at `G` of the arguments
    and the arguments unchanged. -/
theorem run : θ_run defs (onTc (τ := τ) (main (F := Ideal))) ⟨m, fun _ => 0, ρ⟩ fun r => ∀ c : Dev nD,
      r.2.mem ((c.tc : Thread nD τ).loc main_v10)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.lean ====
/-
  The kernel and its reference compute one function of their seven arguments on the extended reals.

  Each row of 128 entries of the input is normalised (centred on its mean, scaled by the reciprocal square root of
  its variance plus a fixed offset, multiplied by a gain and moved by a shift), taken through 512 hidden units (an
  inner product with a weight row, plus a bias, or zero if that is larger) and then through 128 outputs (an inner
  product of the hidden vector with a second weight row, plus a bias): `RowMlp.G`. The kernel does this on the input
  reshaped to 262144 rows, 8192 rows per grid point, with the weights transposed beforehand and the sums taken as a
  lane reduction and two matrix products into zero accumulators; the reference does it on the four-axis input with
  host sums and contractions. On the extended reals a change of float format is the identity and each of those sums
  is the plain finite sum, so both result arrays are `G` of the arguments entry by entry (`KernelValue.lean`,
  `RefValue.lean`); the two sides use the same literals and the same division and reciprocal square root, and no law
  beyond reindexing finite sums, so the precondition is not opened. The kernel read on the extended reals is the
  kernel's own text, no operation of it rewritten, so the conjunct relating the two is trivial. The three frames are
  the generated ones: the two kernels' whole frame certificates, and the reference's run with its result dropped.
-/
import proofs.«141221_j55173149884461_2_alg».proof.Defs
import proofs.«141221_j55173149884461_2_alg».proof.Proof.Gen.Kernel
import proofs.«141221_j55173149884461_2_alg».proof.Proof.Gen.Kernel.Skeleton
import proofs.«141221_j55173149884461_2_alg».proof.Proof.Gen.Kernel.Launch
import proofs.«141221_j55173149884461_2_alg».proof.Proof.Gen.Kernel.Points
import proofs.«141221_j55173149884461_2_alg».proof.Proof.Gen.Kernel.Frame
import proofs.«141221_j55173149884461_2_alg».proof.Proof.Gen.KernelIdeal
import proofs.«141221_j55173149884461_2_alg».proof.Proof.Gen.KernelIdeal.Skeleton
import proofs.«141221_j55173149884461_2_alg».proof.Proof.Gen.KernelIdeal.Launch
import proofs.«141221_j55173149884461_2_alg».proof.Proof.Gen.KernelIdeal.Points
import proofs.«141221_j55173149884461_2_alg».proof.Proof.Gen.KernelIdeal.Frame
import proofs.«141221_j55173149884461_2_alg».proof.Proof.Gen.ReferenceIdeal
import proofs.«141221_j55173149884461_2_alg».proof.Proof.Gen.ReferenceIdeal.Run
import proofs.«141221_j55173149884461_2_alg».proof.Proof.Gen.ReferenceIdeal.Read
import proofs.«141221_j55173149884461_2_alg».proof.Proof.Gen.Pre_finite_inputs
import proofs.«141221_j55173149884461_2_alg».proof.Proof.RowMlp
import proofs.«141221_j55173149884461_2_alg».proof.Proof.RefValue
import proofs.«141221_j55173149884461_2_alg».proof.Proof.KernelValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten to read it on the extended reals: nothing to relate. -/
theorem preserves : Cert.preserves_Kernel_KernelIdeal := trivial

/-- From memories that agree on the arguments both programs end with the result array at `G` of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v32_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
